-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S512x256 : Shape := ⟨2, ![512, 256]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S16384x1 .f32) (main_arg1 : FVec F S16384x1 .f32) (main_arg2 : IVec S16384x1 32) (main_arg3 : FVec F S512x256 .f32) : IVec S_ 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S16384x1 : Shape := ⟨2, ![16384, 1]⟩
abbrev S512x256 : Shape := ⟨2, ![512, 256]⟩
abbrev S1x16384 : Shape := ⟨2, ![1, 16384]⟩
abbrev S2048x1 : Shape := ⟨2, ![2048, 1]⟩
abbrev S1x2048 : Shape := ⟨2, ![1, 2048]⟩
abbrev S2048x2048 : Shape := ⟨2, ![2048, 2048]⟩
abbrev S2x2048 : Shape := ⟨2, ![2, 2048]⟩
abbrev S_ : Shape := ⟨0, ![]⟩

abbrev nBuf : Space → Nat
  | .hbm => 24
  | .vmem => 10
  | .smem => 0
  | _ => 0

abbrev bufTy : (tb : Table) → Fin (tcTables nBuf tb) → BufTy
  | .hbm, ⟨0, _⟩ => ⟨S16384x1, .f32⟩
  | .hbm, ⟨1, _⟩ => ⟨S16384x1, .f32⟩
  | .hbm, ⟨2, _⟩ => ⟨S16384x1, .i32⟩
  | .hbm, ⟨3, _⟩ => ⟨S512x256, .f32⟩
  | .hbm, ⟨4, _⟩ => ⟨S1x16384, .f32⟩
  | .hbm, ⟨5, _⟩ => ⟨S1x16384, .f32⟩
  | .hbm, ⟨6, _⟩ => ⟨S1x16384, .f32⟩
  | .hbm, ⟨7, _⟩ => ⟨S16384x1, .f32⟩
  | .hbm, ⟨8, _⟩ => ⟨S16384x1, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S512x256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S2048x1, .f32⟩
  | .local _ .vmem, ⟨1, _⟩ => ⟨S2048x1, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384x1_S1x16384 : S16384x1.ShapeCasts S1x16384
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x1_S2048x1_0_0 : ∀ a, (![0, 0] : Fin 2 → Nat) a + S2048x1.size a ≤ S2048x1.size a
  h_S2048x1 : 0 < S2048x1.numel
  broadcasts_S1x2048_S2048x2048 : S1x2048.Broadcasts S2048x2048
  broadcasts_S2048x1_S2048x2048 : S2048x1.Broadcasts S2048x2048
  natLt_1_32 : 1 < 32
  bitsLt_bf16_f32 : FTy.bits .bf16 < FTy.bits .f32
  concatenates_S1x2048_S1x2048_S2x2048_d0 : Shape.Concatenates [S1x2048, S1x2048] S2x2048 0
  slices_S2x2048_o0_0_S1x2048 : S2x2048.Slices ![0, 0] S1x2048
  slices_S2x2048_o1_0_S1x2048 : S2x2048.Slices ![1, 0] S1x2048
  shapeCasts_S1x16384_S16384x1 : S1x16384.ShapeCasts S16384x1
  reducesTo_S16384x1_S_d0_1 : S16384x1.ReducesTo [0, 1] S_
  h_S_ : 0 < S_.numel
  reducesTo_S512x256_S_d0_1 : S512x256.ReducesTo [0, 1] S_
  dot_S2x2048_S2048x2048_S2x2048_1_0_0_1_n_n_wf : DotDims.WF S2x2048 S2048x2048 S2x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S16384x1.size a
  hwx0_0 : ∀ i : grid0.Coords, EltTy.bits .f32 = 32 ∨ (Rect.block (s := S16384x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)

variable [Facts₀]

def dot_S2x2048_S2048x2048_S2x2048_1_0_0_1_n_n : DotDims S2x2048 S2048x2048 S2x2048 where
  lhsContracting := [1]
  rhsContracting := [0]
  lhsNonContracting := [0]
  rhsNonContracting := [1]
  lhsBatch := []
  rhsBatch := []
  wf := dot_S2x2048_S2048x2048_S2x2048_1_0_0_1_n_n_wf

abbrev win0_0 : Pipeline.Window sig grid0 :=
  Pipeline.Window.ofSpec (Memref.whole main_arg1) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1 : Shape := ⟨2, ![16384, 1]⟩
abbrev S512x256 : Shape := ⟨2, ![512, 256]⟩
abbrev S1x16384 : Shape := ⟨2, ![1, 16384]⟩
abbrev S16384x16384 : Shape := ⟨2, ![16384, 16384]⟩
abbrev S_ : Shape := ⟨0, ![]⟩
abbrev S16384 : Shape := ⟨1, ![16384]⟩

abbrev nBuf : Space → Nat
  | .hbm => 38
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384x1, .f32⟩
  | .hbm, ⟨2, _⟩ => ⟨S16384x1, .i32⟩
  | .hbm, ⟨3, _⟩ => ⟨S512x256, .f32⟩
  | .hbm, ⟨4, _⟩ => ⟨S1x16384, .f32⟩
  | .hbm, ⟨5, _⟩ => ⟨S16384x16384, .f32⟩
  | .hbm, ⟨6, _⟩ => ⟨S16384x16384, .f32⟩
  | .hbm, ⟨7, _⟩ => ⟨S16384x16384, .f32⟩
  | .hbm, ⟨8, _⟩ => ⟨S_, .f32⟩
  | .hbm, ⟨9, _⟩ => ⟨S16384x16384, .f32⟩
  | .hbm, ⟨10, _⟩ => ⟨S16384x16384, .i1⟩
  | .hbm, ⟨11, _⟩ => ⟨S16384x16384, .f32⟩
  | .hbm, ⟨12, _⟩ => ⟨S16384x1, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S512x256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  transposes_S16384x1_S1x16384_1_0 : S16384x1.Transposes [1, 0] S1x16384
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)
  reducesTo_S16384x16384_S16384_d0 : S16384x16384.ReducesTo [0] S16384
  h_S_ : 0 < S_.numel
  shapeCasts_S16384_S16384x1 : S16384.ShapeCasts S16384x1
  reducesTo_S16384x1_S_d0_1 : S16384x1.ReducesTo [0, 1] S_
  reducesTo_S512x256_S_d0_1 : S512x256.ReducesTo [0, 1] S_

variable [Facts₀]

class Facts : Prop extends Facts₀ where

variable [Facts]
-- ==== Proof.KernelPieces.lean ====
/-
  What each control case of the body leaves behind, as values of the blocks it was given.

  The body has three control cases over a column tile's eight points: the first point zeroes the two running totals and
  then adds its block's contribution; the middle points add theirs; the last point adds its own and stores the logarithm
  of the quotient of the totals into the output block.  Here each case's stored pieces are read back as the body's pure
  arithmetic of the input blocks and of the totals the point before left — at any float instance.
-/
import proofs.«171870_j33638183862568_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First point of a column tile, weighted total: zero plus the block's contribution. -/
theorem first_weighted (c : Dev nD) (i : grid0.Coords) (arg2 : Memref sig .tc .vmem S2048x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i)
    (x0 : Vec F S2048x1 .f32) (x1 : Vec F S1x2048 .f32) (x2 : Vec F S1x2048 .f32) :
    sout0_A_0 c i arg2 harg2 arg3 harg3 arg4 harg4 arg5 harg5 arg6 harg6 arg7 harg7 hc0 hc1 x0 x1 x2 = k0_pay4 x0 x2 x1 k0_pay1 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1x2048) hz, View.readCov_unit_zero (S := S1x2048) _ hz]
  simp only [View.readAt_eq_ld, harg2.read_unread, harg3.read_unread, harg4.read_unread, harg6.read_unread, harg7.read_unread, View.ld_unit_zero (S := S2048x1) hz, View.ld_unit_zero (S := S1x2048) hz]

/-- First point of a column tile, count: zero plus the block's contribution. -/
theorem first_count (c : Dev nD) (i : grid0.Coords) (arg2 : Memref sig .tc .vmem S2048x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i)
    (x0 : Vec F S2048x1 .f32) (x1 : Vec F S1x2048 .f32) (x2 : Vec F S1x2048 .f32) :
    sout0_A_1 c i arg2 harg2 arg3 harg3 arg4 harg4 arg5 harg5 arg6 harg6 arg7 harg7 hc0 hc1 x0 x1 x2 = k0_pay5 x0 x2 x1 k0_pay2 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S1x2048) hz, View.readCov_unit_zero (S := S1x2048) _ hz]
  simp only [View.readAt_eq_ld, harg2.read_unread, harg3.read_unread, harg4.read_unread, harg6.read_unread, harg7.read_unread, View.ld_unit_zero (S := S2048x1) hz, View.ld_unit_zero (S := S1x2048) hz]

/-- A middle point, weighted total: what the point before left plus the block's contribution. -/
theorem middle_weighted (c : Dev nD) (i : grid0.Coords) (arg2 : Memref sig .tc .vmem S2048x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : ¬cond0_1 i)
    (x0 : Vec F S2048x1 .f32) (x1 : Vec F S1x2048 .f32) (x2 : Vec F S1x2048 .f32) (xs0 : Vec F S1x2048 .f32) (xs1 : Vec F S1x2048 .f32) :
    sout0_B_0 c i arg2 harg2 arg3 harg3 arg4 harg4 arg5 harg5 arg6 harg6 arg7 harg7 hc0 hc1 x0 x1 x2 xs0 xs1 = k0_pay4 x0 x2 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread, View.ld_unit_zero (S := S2048x1) hz, View.ld_unit_zero (S := S1x2048) hz]

/-- A middle point, count. -/
theorem middle_count (c : Dev nD) (i : grid0.Coords) (arg2 : Memref sig .tc .vmem S2048x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : ¬cond0_1 i)
    (x0 : Vec F S2048x1 .f32) (x1 : Vec F S1x2048 .f32) (x2 : Vec F S1x2048 .f32) (xs0 : Vec F S1x2048 .f32) (xs1 : Vec F S1x2048 .f32) :
    sout0_B_1 c i arg2 harg2 arg3 harg3 arg4 harg4 arg5 harg5 arg6 harg6 arg7 harg7 hc0 hc1 x0 x1 x2 xs0 xs1 = k0_pay5 x0 x2 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread, View.ld_unit_zero (S := S2048x1) hz, View.ld_unit_zero (S := S1x2048) hz]

/-- The last point of a column tile, weighted total. -/
theorem last_weighted (c : Dev nD) (i : grid0.Coords) (arg2 : Memref sig .tc .vmem S2048x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i)
    (x0 : Vec F S2048x1 .f32) (x1 : Vec F S1x2048 .f32) (x2 : Vec F S1x2048 .f32) (xs0 : Vec F S1x2048 .f32) (xs1 : Vec F S1x2048 .f32) :
    sout0_C_0 c i arg2 harg2 arg3 harg3 arg4 harg4 arg5 harg5 arg6 harg6 arg7 harg7 hc0 hc1 x0 x1 x2 xs0 xs1 = k0_pay4 x0 x2 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S2048x1) hz, View.ld_unit_zero (S := S1x2048) hz]

/-- The last point of a column tile, count. -/
theorem last_count (c : Dev nD) (i : grid0.Coords) (arg2 : Memref sig .tc .vmem S2048x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i)
    (x0 : Vec F S2048x1 .f32) (x1 : Vec F S1x2048 .f32) (x2 : Vec F S1x2048 .f32) (xs0 : Vec F S1x2048 .f32) (xs1 : Vec F S1x2048 .f32) :
    sout0_C_1 c i arg2 harg2 arg3 harg3 arg4 harg4 arg5 harg5 arg6 harg6 arg7 harg7 hc0 hc1 x0 x1 x2 xs0 xs1 = k0_pay5 x0 x2 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S2048x1) hz, View.ld_unit_zero (S := S1x2048) hz]

/-- The last point of a column tile, the output block: the logarithm of the quotient of the two finished totals. -/
theorem last_output (c : Dev nD) (i : grid0.Coords) (arg2 : Memref sig .tc .vmem S2048x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i)
    (x0 : Vec F S2048x1 .f32) (x1 : Vec F S1x2048 .f32) (x2 : Vec F S1x2048 .f32) (xs0 : Vec F S1x2048 .f32) (xs1 : Vec F S1x2048 .f32) :
    out0_C_3 c i arg2 harg2 arg3 harg3 arg4 harg4 arg5 harg5 arg6 harg6 arg7 harg7 hc0 hc1 x0 x1 x2 xs0 xs1 = k0_pay6 (k0_pay4 x0 x2 x1 xs0) (k0_pay5 x0 x2 x1 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz, View.readCov_unit_zero (S := S1x2048) _ hz, View.readCov_unit_zero (S := S1x2048) _ hz]
  simp only [View.readAt_eq_ld, harg2.read_unread, harg3.read_unread, harg4.read_unread, harg6.read_unread, harg7.read_unread, View.ld_unit_zero (S := S2048x1) hz, View.ld_unit_zero (S := S1x2048) hz]

end Cert.KernelIdeal.Pieces

end
-- ==== Proof.Spec.lean ====
/-
  The partial-likelihood loss, as one function of the argument arrays on the extended reals.

  For survival times `y` and risk scores `r`, both columns of 16384 entries, subject `i` is in the risk set of
  subject `j` when `y j ≤ y i`.  The weighted size of `j`'s risk set is `num j = ∑ i, exp (r i) · [y j ≤ y i]`, its
  size `den j = ∑ i, [y j ≤ y i]`, and the per-subject term is `log (num j / den j)`.  The loss then averages
  `(r j - log (num j / den j)) · e j` over the events `e` and adds a multiple of the weight matrix's norm; that last
  part is the same closed expression `tail` of the column of per-subject terms for both programs.
-/
import Idealize.ShloMosaic.Lib.ValueIdx
import Idealize.ShloMosaic.PureOps.Ideal.Laws

noncomputable section

namespace Cert.RiskSet

open Idealize.ShloMosaic Idealize.ShloMosaic.ValueIdx

/-- A column of 16384 entries. -/
abbrev Col : Shape := ⟨2, ![16384, 1]⟩
/-- A rank-zero array. -/
abbrev Sc : Shape := ⟨0, ![]⟩
/-- The weight matrix's shape. -/
abbrev Wt : Shape := ⟨2, ![512, 256]⟩

/-- The indicator of `a ≤ b` as an extended real: `1` when it holds, `0` otherwise. -/
def ind (a b : EReal) : EReal := if a ≤ b then 1 else 0

/-- Entry `i` of a column. -/
abbrev at1 (x : Col.Idx → EReal) (i : Fin 16384) : EReal := x (ix2 i (0 : Fin 1))

/-- The weighted size of `j`'s risk set. -/
def num (r y : Col.Idx → EReal) (j : Fin 16384) : EReal :=
  ∑ i : Fin 16384, Ideal.exp (at1 r i) * ind (at1 y j) (at1 y i)

/-- The size of `j`'s risk set. -/
def den (y : Col.Idx → EReal) (j : Fin 16384) : EReal :=
  ∑ i : Fin 16384, ind (at1 y j) (at1 y i)

/-- The per-subject term `log (num j / den j)`. -/
def logRatio (r y : Col.Idx → EReal) (j : Fin 16384) : EReal :=
  Ideal.log (Ideal.div (num r y j) (den y j))

/-- The per-subject terms as a column. -/
def logCol (r y : Col.Idx → EReal) : FVec Ideal Col .f32 := fun i => logRatio r y (i 0)

/-- What both programs compute from the column `L` of per-subject terms: minus the sum of `(r - L) · e` divided by
    the sum of `e`, plus the constant times the square root of the sum of the squared weights. -/
def tail (hR : Col.ReducesTo [0, 1] Sc) (hW : Wt.ReducesTo [0, 1] Sc) (hS : 0 < Sc.numel)
    (r : FVec Ideal Col .f32) (e : IVec Col 32) (w : FVec Ideal Wt .f32) (L : FVec Ideal Col .f32) :
    FVec Ideal Sc .f32 :=
  addf
    (Host.divf
      (Host.negf (Host.reduceAdd (mulf (subf r L) (sitofp (F := Ideal) .f32 e)) (constant (F := Ideal) Sc .f32 0x00000000#32) hR hS))
      (Host.reduceAdd (sitofp (F := Ideal) .f32 e) (constant (F := Ideal) Sc .f32 0x00000000#32) hR hS))
    (mulf (constant (F := Ideal) Sc .f32 0x3C23D70A#32)
      (Host.sqrt (Host.reduceAdd (mulf w w) (constant (F := Ideal) Sc .f32 0x00000000#32) hW hS)))

/-- The indicator read off a comparison bit widened to 32 bits and converted as a signed integer. -/
theorem ind_of_signed (a b : EReal) :
    (((BitVec.setWidth 32 (Ideal.cmp .ole a b)).toInt : ℝ) : EReal) = ind a b := by
  unfold ind Ideal.cmp
  by_cases h : a ≤ b
  · simp [h]
  · simp [h]

/-- The indicator read off a comparison bit converted as an unsigned integer, the comparison being of the
    difference against zero: `a - b ≤ 0` exactly when `a ≤ b`, on all the extended reals. -/
theorem ind_of_unsigned_sub (a b : EReal) :
    (((Ideal.cmp .ole (a - b) 0).toNat : ℝ) : EReal) = ind a b := by
  unfold ind Ideal.cmp
  by_cases h : a ≤ b
  · have h' : a - b ≤ 0 := EReal.sub_nonpos.mpr h
    simp [h, h']
  · have h' : ¬ a - b ≤ 0 := fun hh => h (EReal.sub_nonpos.mp hh)
    simp [h, h']

end Cert.RiskSet

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.KernelPayload.lean ====
/-
  The body's arithmetic at one grid point, entry by entry, on the extended reals.

  At a point the body holds a block `x0` of 2048 survival times as a column (the risk-set members `k`), a block `x2` of
  2048 survival times as a row (the queries `j`) and the block `x1` of the members' risk scores as a row.  It forms
  the 0/1 matrix `[x2 j ≤ x0 k]`, stacks the row `exp x1` on a row of ones, and multiplies: row 0 of the product is the
  block's contribution `∑ k, exp (x1 k) · [x2 j ≤ x0 k]` to the weighted risk-set size, row 1 its contribution
  `∑ k, [x2 j ≤ x0 k]` to the risk-set size.  Both are added to the running totals; the last point of a column tile takes
  the logarithm of the quotient of the totals.
-/
import proofs.«171870_j33638183862568_2_alg».proof.Proof.Gen.KernelIdeal.Skeleton
import proofs.«171870_j33638183862568_2_alg».proof.Proof.Spec
import proofs.«171870_j33638183862568_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Body

open Idealize.ShloMosaic Idealize.ShloMosaic.ValueIdx Cert.KernelIdeal Cert.KernelIdeal.Gen Cert.RiskSet

/-- An `[a, 1]` column broadcast to `[a, b]` reads, at `(p, c)`, the column at `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction of the body's product has the one axis of extent 2048, and the operand indices at output
    `(p, c)` and contraction coordinate `k` are `(p, k)` and `(k, c)`. -/
abbrev D := dot_S2x2048_S2048x2048_S2x2048_1_0_0_1_n_n

theorem D_rank : D.contr.rank = 1 := rfl
theorem D_size : D.contr.size ⟨0, by rw [D_rank]; exact Nat.one_pos⟩ = 2048 := rfl
theorem D_l0 (j : S2x2048.Idx) (q : D.contr.Idx) : (D.lhsIdx j q (0 : Fin 2)).val = (j (0 : Fin 2)).val := by
  simp [DotDims.lhsIdx, D, dot_S2x2048_S2048x2048_S2x2048_1_0_0_1_n_n]; rfl
theorem D_l1 (j : S2x2048.Idx) (q : D.contr.Idx) : (D.lhsIdx j q (1 : Fin 2)).val = (q ⟨0, by rw [D_rank]; exact Nat.one_pos⟩).val := by
  simp [DotDims.lhsIdx, D, dot_S2x2048_S2048x2048_S2x2048_1_0_0_1_n_n]; rfl
theorem D_r0 (j : S2x2048.Idx) (q : D.contr.Idx) : (D.rhsIdx j q (0 : Fin 2)).val = (q ⟨0, by rw [D_rank]; exact Nat.one_pos⟩).val := by
  simp [DotDims.rhsIdx, D, dot_S2x2048_S2048x2048_S2x2048_1_0_0_1_n_n]; rfl
theorem D_r1 (j : S2x2048.Idx) (q : D.contr.Idx) : (D.rhsIdx j q (1 : Fin 2)).val = (j (1 : Fin 2)).val := by
  simp [DotDims.rhsIdx, D, dot_S2x2048_S2048x2048_S2x2048_1_0_0_1_n_n]; rfl

/-- An entry of the 0/1 matrix: the row block broadcast down, the column block broadcast across, compared, widened and
    converted; the change of float format is the identity. -/
theorem mask_entry (x0 : FVec Ideal S2048x1 .f32) (x2 : FVec Ideal S1x2048 .f32) (k j : Fin 2048) :
    (truncf .bf16 (sitofp (F := Ideal) .f32 (extui 32 (cmpf .ole
        (broadcastTo S2048x2048 (shapeCast S1x2048 x2 shapeCasts_S1x2048_S1x2048) broadcasts_S1x2048_S2048x2048)
        (broadcastTo S2048x2048 x0 broadcasts_S2048x1_S2048x2048)) natLt_1_32)) bitsLt_bf16_f32
      : FVec Ideal S2048x2048 .bf16) (ix2 k j) = ind (x2 (ix2 (0 : Fin 1) j)) (x0 (ix2 k (0 : Fin 1))) := by
  rw [truncf_apply, sitofp_apply, extui_apply, cmpf_apply, shapeCast_self, broadcastTo_1b_ab_apply, broadcastTo_col_apply]
  exact ind_of_signed _ _

/-- The bf16 word `0x3F80` is the number one. -/
theorem one_bf16 : Ideal.ofBits .bf16 0x3F80#16 = 1 := Ideal.ofBits_one_bf16

/-- The stacked left operand: row 0 is `exp` of the risk-score block, row 1 is all ones. -/
theorem lhs_row0 (x1 : FVec Ideal S1x2048 .f32) (k : Fin 2048) :
    (concatenate S2x2048 0 [⟨S1x2048, (truncf .bf16 (exp (shapeCast S1x2048 x1 shapeCasts_S1x2048_S1x2048)) bitsLt_bf16_f32 : FVec Ideal S1x2048 .bf16)⟩,
        ⟨S1x2048, (broadcast S1x2048 (Scalar.ofBits (F := Ideal) .bf16 0x3F80#16) : FVec Ideal S1x2048 .bf16)⟩] concatenates_S1x2048_S1x2048_S2x2048_d0
      : FVec Ideal S2x2048 .bf16) (ix2 (0 : Fin 2) k) = Ideal.exp (x1 (ix2 (0 : Fin 1) k)) := by
  refine (concatenate_pair_apply_left (t := S2x2048) (s₁ := S1x2048) (s₂ := S1x2048) (0 : Fin 2) _ _ concatenates_S1x2048_S1x2048_S2x2048_d0 (ix2 (0 : Fin 2) k) rfl (ix2 (0 : Fin 1) k) ?_).trans ?_
  · intro b
    match b with
    | ⟨0, _⟩ => rfl
    | ⟨1, _⟩ => rfl
  · rw [truncf_apply, shapeCast_self]; rfl

theorem lhs_row1 (x1 : FVec Ideal S1x2048 .f32) (k : Fin 2048) :
    (concatenate S2x2048 0 [⟨S1x2048, (truncf .bf16 (exp (shapeCast S1x2048 x1 shapeCasts_S1x2048_S1x2048)) bitsLt_bf16_f32 : FVec Ideal S1x2048 .bf16)⟩,
        ⟨S1x2048, (broadcast S1x2048 (Scalar.ofBits (F := Ideal) .bf16 0x3F80#16) : FVec Ideal S1x2048 .bf16)⟩] concatenates_S1x2048_S1x2048_S2x2048_d0
      : FVec Ideal S2x2048 .bf16) (ix2 (1 : Fin 2) k) = 1 := by
  refine (concatenate_pair_apply_right (t := S2x2048) (s₁ := S1x2048) (s₂ := S1x2048) (0 : Fin 2) _ _ concatenates_S1x2048_S1x2048_S2x2048_d0 (ix2 (1 : Fin 2) k) rfl rfl (ix2 (0 : Fin 1) k) ?_ ?_).trans ?_
  · intro b hb
    match b with
    | ⟨0, _⟩ => exact absurd rfl hb
    | ⟨1, _⟩ => rfl
  · rfl
  · exact one_bf16

/-- Row 0 of the block's product: its contribution to the weighted risk-set size of query `j`. -/
theorem product_row0 (x0 : FVec Ideal S2048x1 .f32) (x2 x1 : FVec Ideal S1x2048 .f32) (j : Fin 2048) :
    k0_pay3 (F := Ideal) x0 x2 x1 (ix2 (0 : Fin 2) j)
      = ∑ k : Fin 2048, Ideal.exp (x1 (ix2 (0 : Fin 1) k)) * ind (x2 (ix2 (0 : Fin 1) j)) (x0 (ix2 k (0 : Fin 1))) := by
  unfold k0_pay3
  refine (Cert.PlainProduct.matmul_zero_entry (M := 2) (K := 2048) (N := 2048) D D_rank D_size D_l0 D_l1 D_r0 D_r1 _ _ (0 : Fin 2) j).trans ?_
  refine Finset.sum_congr rfl fun k _ => ?_
  rw [lhs_row0, mask_entry]

/-- Row 1 of the block's product: its contribution to the risk-set size of query `j`. -/
theorem product_row1 (x0 : FVec Ideal S2048x1 .f32) (x2 x1 : FVec Ideal S1x2048 .f32) (j : Fin 2048) :
    k0_pay3 (F := Ideal) x0 x2 x1 (ix2 (1 : Fin 2) j)
      = ∑ k : Fin 2048, ind (x2 (ix2 (0 : Fin 1) j)) (x0 (ix2 k (0 : Fin 1))) := by
  unfold k0_pay3
  refine (Cert.PlainProduct.matmul_zero_entry (M := 2) (K := 2048) (N := 2048) D D_rank D_size D_l0 D_l1 D_r0 D_r1 _ _ (1 : Fin 2) j).trans ?_
  refine Finset.sum_congr rfl fun k _ => ?_
  rw [lhs_row1, mask_entry, one_mul]

/-- The running weighted total after the point: the total before plus row 0 of the product. -/
theorem weighted_step (x0 : FVec Ideal S2048x1 .f32) (x2 x1 acc : FVec Ideal S1x2048 .f32) (j : Fin 2048) :
    k0_pay4 (F := Ideal) x0 x2 x1 acc (ix2 (0 : Fin 1) j)
      = acc (ix2 (0 : Fin 1) j) + ∑ k : Fin 2048, Ideal.exp (x1 (ix2 (0 : Fin 1) k)) * ind (x2 (ix2 (0 : Fin 1) j)) (x0 (ix2 k (0 : Fin 1))) := by
  unfold k0_pay4
  rw [shapeCast_self, addf_apply, slice2_axis0_apply 0 _ slices_S2x2048_o0_0_S1x2048 (0 : Fin 1) j (0 : Fin 2) rfl, product_row0]

/-- The running count after the point: the count before plus row 1 of the product. -/
theorem count_step (x0 : FVec Ideal S2048x1 .f32) (x2 x1 acc : FVec Ideal S1x2048 .f32) (j : Fin 2048) :
    k0_pay5 (F := Ideal) x0 x2 x1 acc (ix2 (0 : Fin 1) j)
      = acc (ix2 (0 : Fin 1) j) + ∑ k : Fin 2048, ind (x2 (ix2 (0 : Fin 1) j)) (x0 (ix2 k (0 : Fin 1))) := by
  unfold k0_pay5
  rw [shapeCast_self, addf_apply, slice2_axis0_apply 1 _ slices_S2x2048_o1_0_S1x2048 (0 : Fin 1) j (1 : Fin 2) rfl, product_row1]

/-- The block the last point of a column tile stores: the logarithm of the quotient of the two totals. -/
theorem finish_entry (a b : FVec Ideal S1x2048 .f32) (i : S1x2048.Idx) :
    k0_pay6 (F := Ideal) a b i = Ideal.log (Ideal.div (a i) (b i)) := rfl

/-- The two totals start from zero. -/
theorem zero_weighted (i : S1x2048.Idx) : k0_pay1 (F := Ideal) i = 0 := by
  unfold k0_pay1
  rw [shapeCast_self]
  exact Ideal.ofBits_zero_f32

theorem zero_count (i : S1x2048.Idx) : k0_pay2 (F := Ideal) i = 0 := by
  unfold k0_pay2
  rw [shapeCast_self]
  exact Ideal.ofBits_zero_f32

end Cert.KernelIdeal.Body

end
-- ==== Proof.KernelBlocks.lean ====
/-
  Where the body's blocks sit in the argument arrays.

  The grid has 64 points, point `t` working on column tile `t / 8` (2048 queries) and row tile `t % 8` (2048 risk-set
  members).  The members' survival times are read from the column of survival times at rows `(t % 8) · 2048 + k`; their
  risk scores from the column of risk scores laid out as a row, at the same positions; the queries' survival times
  from the column of survival times laid out as a row, at positions `(t / 8) · 2048 + j`.  A column laid out as a row
  holds entry `i` at position `i`.
-/
import proofs.«171870_j33638183862568_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx Idealize.ShloMosaic.StableHlo
open Cert.KernelIdeal Cert.KernelIdeal.Gen

variable {F : FTy → Type} [FloatOps F]
variable (m : (ℓ : Loc nD τ sig) → Buf (Elt F) ℓ)

/-- The printed index maps over the grid: the member windows move with `t % 8`, the query and output windows with `t / 8`. -/
theorem index_facts : ∀ t : Fin cfg0.N,
    win0_0.index t (0 : Fin 2) = t.val % 8 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = t.val / 8
    ∧ win0_3.index t (0 : Fin 2) = 0 ∧ win0_3.index t (1 : Fin 2) = t.val / 8 :=
  (by decide +kernel : ∀ t : Fin grid0.N, _)

/-- The survival times laid out as a row, as the region finds them. -/
theorem yrow_eq (c : Dev nD) :
    (V m c main_v0 : S1x16384.Idx → Elt F .f32) = shapeCast S1x16384 (m ((c : Thread nD τ).loc main_arg1)) shapeCasts_S16384x1_S1x16384 := by
  show StableHlo.after hostOps0 (fun b => m (c, b)) (Proc.devRef .tc main_v0) = _
  after_results; rfl

/-- The risk scores laid out as a row, as the region finds them. -/
theorem rrow_eq (c : Dev nD) :
    (V m c main_v1 : S1x16384.Idx → Elt F .f32) = shapeCast S1x16384 (m ((c : Thread nD τ).loc main_arg0)) shapeCasts_S16384x1_S1x16384 := by
  show StableHlo.after hostOps0 (fun b => m (c, b)) (Proc.devRef .tc main_v1) = _
  after_results; rfl

/-- A column laid out as a row holds entry `i` at position `i`. -/
theorem row_of_col (x : S16384x1.Idx → Elt F .f32) (i : Fin 16384) :
    shapeCast S1x16384 x shapeCasts_S16384x1_S1x16384 (ix2 (0 : Fin 1) i) = x (ix2 i (0 : Fin 1)) :=
  shapeCast_apply x shapeCasts_S16384x1_S1x16384 _ _ (by
    rw [Shape.rowMajor_val_two, Shape.rowMajor_val_two]
    show i.val * 1 + 0 = 0 * 16384 + i.val
    omega)

/-- Member `k` of the point's column block of survival times. -/
theorem member_time (c : Dev nD) (t : Fin cfg0.N) (k : Fin 2048) (i : Fin 16384) (hi : i.val = t.val % 8 * 2048 + k.val) :
    (iblk m c 0 t : Vec F S2048x1 .f32) (ix2 k (0 : Fin 1)) = m ((c : Thread nD τ).loc main_arg1) (ix2 i (0 : Fin 1)) := by
  obtain ⟨e0, e1, -⟩ := index_facts t
  unfold iblk
  rw [View.read_apply]
  show V m c main_arg1 _ = _
  rw [V_main_arg1]
  congr 1
  funext a; apply Fin.ext
  match a with
  | ⟨0, _⟩ => show win0_0.index t (0 : Fin 2) * 2048 + 1 * k.val = i.val; omega
  | ⟨1, _⟩ => show win0_0.index t (1 : Fin 2) * 1 + 1 * 0 = 0; omega

/-- Member `k` of the point's row block of risk scores. -/
theorem member_score (c : Dev nD) (t : Fin cfg0.N) (k : Fin 2048) (i : Fin 16384) (hi : i.val = t.val % 8 * 2048 + k.val) :
    (iblk m c 1 t : Vec F S1x2048 .f32) (ix2 (0 : Fin 1) k) = m ((c : Thread nD τ).loc main_arg0) (ix2 i (0 : Fin 1)) := by
  obtain ⟨-, -, e0, e1, -⟩ := index_facts t
  unfold iblk
  rw [View.read_apply]
  show V m c main_v1 _ = _
  rw [rrow_eq, ← row_of_col (m ((c : Thread nD τ).loc main_arg0)) i]
  congr 1
  funext a; apply Fin.ext
  match a with
  | ⟨0, _⟩ => show win0_1.index t (0 : Fin 2) * 1 + 1 * 0 = 0; omega
  | ⟨1, _⟩ => show win0_1.index t (1 : Fin 2) * 2048 + 1 * k.val = i.val; omega

/-- Query `j` of the point's row block of survival times. -/
theorem query_time (c : Dev nD) (t : Fin cfg0.N) (j : Fin 2048) (g : Fin 16384) (hg : g.val = t.val / 8 * 2048 + j.val) :
    (iblk m c 2 t : Vec F S1x2048 .f32) (ix2 (0 : Fin 1) j) = m ((c : Thread nD τ).loc main_arg1) (ix2 g (0 : Fin 1)) := by
  obtain ⟨-, -, -, -, e0, e1, -⟩ := index_facts t
  unfold iblk
  rw [View.read_apply]
  show V m c main_v0 _ = _
  rw [yrow_eq, ← row_of_col (m ((c : Thread nD τ).loc main_arg1)) g]
  congr 1
  funext a; apply Fin.ext
  match a with
  | ⟨0, _⟩ => show win0_2.index t (0 : Fin 2) * 1 + 1 * 0 = 0; omega
  | ⟨1, _⟩ => show win0_2.index t (1 : Fin 2) * 2048 + 1 * j.val = g.val; omega

end Cert.KernelIdeal.Blocks

end
-- ==== Proof.LibTileSum.lean ====
/-
  A sum over the rows of an array cut into equal row tiles, regrouped tile by tile.

  An array of `T * R` rows read in `T` consecutive tiles of `R` rows each: row `t * R + p` is row `p` of tile `t`.
  Over any commutative additive monoid the sum over all the rows is the sum, over the tiles, of each tile's sum over
  its own rows — associativity and commutativity of the addition only.
-/
import Mathlib.Algebra.BigOperators.Fin
import Mathlib.Algebra.BigOperators.Group.Finset.Basic
import Mathlib.Logic.Equiv.Fin.Basic

namespace Cert.LibTileSum

open Finset

/-- Row `p` of tile `t`, among `T` tiles of `R` rows, is a row of the whole: `t * R + p < T * R`. -/
theorem tile_lt {T R : ℕ} (t : Fin T) (p : Fin R) : t.val * R + p.val < T * R :=
  calc t.val * R + p.val < t.val * R + R := Nat.add_lt_add_left p.isLt _
    _ = (t.val + 1) * R := (Nat.succ_mul _ _).symm
    _ ≤ T * R := Nat.mul_le_mul_right R t.isLt

/-- The sum over the `T * R` rows is the sum over the `T` tiles of the sum over each tile's `R` rows, row `p` of
    tile `t` being row `t * R + p` of the whole. -/
theorem sum_rows_eq_sum_tiles {M : Type*} [AddCommMonoid M] {N : ℕ} (T R : ℕ) (h : N = T * R) (f : Fin N → M) :
    ∑ i : Fin N, f i = ∑ t : Fin T, ∑ p : Fin R, f ⟨t.val * R + p.val, h ▸ tile_lt t p⟩ := by
  subst h
  rw [← Equiv.sum_comp (finProdFinEquiv (m := T) (n := R)) f, Fintype.sum_prod_type]
  refine Finset.sum_congr rfl fun t _ => Finset.sum_congr rfl fun p _ => ?_
  congr 1
  apply Fin.ext
  show p.val + R * t.val = t.val * R + p.val
  rw [Nat.mul_comm, Nat.add_comm]

/-- The same with the tiles counted by a natural number below `T`: the form a fold over the grid's points unrolls to.
    `g s` is tile `s`'s contribution, a function of every natural number. -/
theorem sum_range_eq_sum_fin {M : Type*} [AddCommMonoid M] (T : ℕ) (g : ℕ → M) :
    ∑ s ∈ Finset.range T, g s = ∑ t : Fin T, g t.val :=
  (Fin.sum_univ_eq_sum_range g T).symm

end Cert.LibTileSum
-- ==== Proof.KernelAccum.lean ====
/-
  The running totals across a column tile's eight points.

  For a query `g` the weighted size of its risk set is a sum over all 16384 subjects; the kernel reaches it in eight
  steps, row tile `s` contributing the sum over its 2048 members.  After the point at position `n % 8` of its column
  tile the two running totals hold the contributions of the row tiles `0, …, n % 8` — zero plus the first, then each
  point adding its own — and after the eighth they hold the whole sums, which is where the kernel takes the logarithm
  of their quotient.  Only associativity and commutativity of the sum are used.
-/
import proofs.«171870_j33638183862568_2_alg».proof.Proof.KernelPieces
import proofs.«171870_j33638183862568_2_alg».proof.Proof.KernelPayload
import proofs.«171870_j33638183862568_2_alg».proof.Proof.KernelBlocks
import proofs.«171870_j33638183862568_2_alg».proof.Proof.LibTileSum

set_option maxRecDepth 16384

noncomputable section

namespace Cert.KernelIdeal.Accum

open Idealize.ShloMosaic Idealize.ShloMosaic.TcCoe Idealize.SL.Sem Idealize.ShloMosaic.ValueIdx
open Cert.KernelIdeal Cert.KernelIdeal.Gen Cert.RiskSet
open Cert.KernelIdeal.Pieces Cert.KernelIdeal.Body Cert.KernelIdeal.Blocks

variable (m : (ℓ : Loc nD τ sig) → Buf (Elt Ideal) ℓ)

/-- Subject `i`'s term of the weighted size of `g`'s risk set. -/
def wterm (r y : Col.Idx → EReal) (g i : Fin 16384) : EReal := Ideal.exp (at1 r i) * ind (at1 y g) (at1 y i)

/-- Subject `i`'s term of the size of `g`'s risk set. -/
def cterm (y : Col.Idx → EReal) (g i : Fin 16384) : EReal := ind (at1 y g) (at1 y i)

/-- Row tile `s`'s share of a sum over the subjects: the sum over its 2048 members (nothing past the eighth tile). -/
def tile (f : Fin 16384 → EReal) (s : ℕ) : EReal :=
  if hs : s < 8 then ∑ p : Fin 2048, f ⟨s * 2048 + p.val, by have := p.isLt; omega⟩ else 0

/-- The eight row tiles' shares add up to the sum over all the subjects. -/
theorem sum_tiles (f : Fin 16384 → EReal) : ∑ s ∈ Finset.range 8, tile f s = ∑ i : Fin 16384, f i := by
  rw [Cert.LibTileSum.sum_range_eq_sum_fin 8 (tile f), Cert.LibTileSum.sum_rows_eq_sum_tiles 8 2048 (by norm_num) f]
  refine Finset.sum_congr rfl fun t _ => ?_
  unfold tile
  rw [dif_pos t.isLt]

/-- The risk scores and the survival times the program was launched with. -/
abbrev scores (c : Dev nD) : Col.Idx → EReal := m ((c : Thread nD τ).loc main_arg0)
abbrev times (c : Dev nD) : Col.Idx → EReal := m ((c : Thread nD τ).loc main_arg1)

/-- One point's step of the weighted total, at query `j` of the column tile: the total before plus the point's row
    tile's share. -/
theorem point_weighted (c : Dev nD) (t : Fin cfg0.N) (j : Fin 2048) (g : Fin 16384) (hg : g.val = t.val / 8 * 2048 + j.val)
    (acc : FVec Ideal S1x2048 .f32) :
    k0_pay4 (F := Ideal) (iblk m c 0 t : Vec Ideal S2048x1 .f32) (iblk m c 2 t : Vec Ideal S1x2048 .f32) (iblk m c 1 t : Vec Ideal S1x2048 .f32) acc (ix2 (0 : Fin 1) j)
      = acc (ix2 (0 : Fin 1) j) + tile (wterm (scores m c) (times m c) g) (t.val % 8) := by
  refine (weighted_step (iblk m c 0 t : Vec Ideal S2048x1 .f32) (iblk m c 2 t : Vec Ideal S1x2048 .f32) (iblk m c 1 t : Vec Ideal S1x2048 .f32) acc j).trans ?_
  refine congrArg (acc (ix2 (0 : Fin 1) j) + ·) ?_
  unfold tile
  rw [dif_pos (Nat.mod_lt _ (by norm_num))]
  refine Finset.sum_congr rfl fun k _ => ?_
  unfold wterm
  rw [member_score m c t k ⟨t.val % 8 * 2048 + k.val, by have := k.isLt; omega⟩ rfl, query_time m c t j g hg,
    member_time m c t k ⟨t.val % 8 * 2048 + k.val, by have := k.isLt; omega⟩ rfl]

/-- One point's step of the count. -/
theorem point_count (c : Dev nD) (t : Fin cfg0.N) (j : Fin 2048) (g : Fin 16384) (hg : g.val = t.val / 8 * 2048 + j.val)
    (acc : FVec Ideal S1x2048 .f32) :
    k0_pay5 (F := Ideal) (iblk m c 0 t : Vec Ideal S2048x1 .f32) (iblk m c 2 t : Vec Ideal S1x2048 .f32) (iblk m c 1 t : Vec Ideal S1x2048 .f32) acc (ix2 (0 : Fin 1) j)
      = acc (ix2 (0 : Fin 1) j) + tile (cterm (times m c) g) (t.val % 8) := by
  refine (count_step (iblk m c 0 t : Vec Ideal S2048x1 .f32) (iblk m c 2 t : Vec Ideal S1x2048 .f32) (iblk m c 1 t : Vec Ideal S1x2048 .f32) acc j).trans ?_
  refine congrArg (acc (ix2 (0 : Fin 1) j) + ·) ?_
  unfold tile
  rw [dif_pos (Nat.mod_lt _ (by norm_num))]
  refine Finset.sum_congr rfl fun k _ => ?_
  unfold cterm
  rw [query_time m c t j g hg, member_time m c t k ⟨t.val % 8 * 2048 + k.val, by have := k.isLt; omega⟩ rfl]

/-- What a point adds to the two running totals, at query `j` of its column tile: its row tile's shares, onto zero
    at the tile's first point and onto what the point before left elsewhere. -/
theorem after_point (c : Dev nD) (t : Fin cfg0.N) (j : Fin 2048) (g : Fin 16384) (hg : g.val = t.val / 8 * 2048 + j.val) :
    (outsAt0 m c t.val t.isLt).2.1 (ix2 (0 : Fin 1) j)
        = (if t.val % 8 = 0 then 0 else (outsAt0 m c (t.val - 1) (Nat.lt_of_le_of_lt (Nat.sub_le _ _) t.isLt)).2.1 (ix2 (0 : Fin 1) j))
          + tile (wterm (scores m c) (times m c) g) (t.val % 8)
    ∧ (outsAt0 m c t.val t.isLt).2.2 (ix2 (0 : Fin 1) j)
        = (if t.val % 8 = 0 then 0 else (outsAt0 m c (t.val - 1) (Nat.lt_of_le_of_lt (Nat.sub_le _ _) t.isLt)).2.2 (ix2 (0 : Fin 1) j))
          + tile (cterm (times m c) g) (t.val % 8) := by
  by_cases h0 : t.val % 8 = 0
  · have h1 : ¬ t.val % 8 = 7 := by omega
    rw [outsAt0_A m c t h0 h1, if_pos h0, if_pos h0]
    dsimp only
    rw [first_weighted, first_count]
    exact ⟨(point_weighted m c t j g hg _).trans (by rw [zero_weighted]), (point_count m c t j g hg _).trans (by rw [zero_count])⟩
  · rw [if_neg h0, if_neg h0]
    by_cases h1 : t.val % 8 = 7
    · rw [outsAt0_C m c t h0 h1]
      dsimp only
      rw [last_weighted, last_count]
      exact ⟨point_weighted m c t j g hg _, point_count m c t j g hg _⟩
    · rw [outsAt0_B m c t h0 h1]
      dsimp only
      rw [middle_weighted, middle_count]
      exact ⟨point_weighted m c t j g hg _, point_count m c t j g hg _⟩

/-- After the point at position `n % 8` of its column tile the running totals hold the shares of the row tiles
    `0, …, n % 8`. -/
theorem totals (c : Dev nD) : ∀ (n : ℕ) (h : n < cfg0.N) (j : Fin 2048) (g : Fin 16384), g.val = n / 8 * 2048 + j.val →
    (outsAt0 m c n h).2.1 (ix2 (0 : Fin 1) j) = ∑ s ∈ Finset.range (n % 8 + 1), tile (wterm (scores m c) (times m c) g) s
    ∧ (outsAt0 m c n h).2.2 (ix2 (0 : Fin 1) j) = ∑ s ∈ Finset.range (n % 8 + 1), tile (cterm (times m c) g) s := by
  intro n
  induction n with
  | zero =>
    intro h j g hg
    obtain ⟨a, b⟩ := after_point m c ⟨0, h⟩ j g hg
    refine ⟨a.trans ?_, b.trans ?_⟩
    · show (if (0 : ℕ) % 8 = 0 then (0 : EReal) else _) + tile _ (0 % 8) = _
      rw [if_pos (by norm_num)]
      simp only [Nat.zero_mod, zero_add, Finset.sum_range_one]
    · show (if (0 : ℕ) % 8 = 0 then (0 : EReal) else _) + tile _ (0 % 8) = _
      rw [if_pos (by norm_num)]
      simp only [Nat.zero_mod, zero_add, Finset.sum_range_one]
  | succ n ih =>
    intro h j g hg
    obtain ⟨a, b⟩ := after_point m c ⟨n + 1, h⟩ j g hg
    have a' : (outsAt0 m c (n + 1) h).2.1 (ix2 (0 : Fin 1) j)
        = (if (n + 1) % 8 = 0 then 0 else (outsAt0 m c n (Nat.lt_of_succ_lt h)).2.1 (ix2 (0 : Fin 1) j))
          + tile (wterm (scores m c) (times m c) g) ((n + 1) % 8) := a
    have b' : (outsAt0 m c (n + 1) h).2.2 (ix2 (0 : Fin 1) j)
        = (if (n + 1) % 8 = 0 then 0 else (outsAt0 m c n (Nat.lt_of_succ_lt h)).2.2 (ix2 (0 : Fin 1) j))
          + tile (cterm (times m c) g) ((n + 1) % 8) := b
    by_cases h0 : (n + 1) % 8 = 0
    · rw [a', b', if_pos h0, if_pos h0, h0]
      simp only [zero_add, Finset.sum_range_one, and_self]
    · have hq : n / 8 = (n + 1) / 8 := by omega
      have hr : (n + 1) % 8 = n % 8 + 1 := by omega
      obtain ⟨ia, ib⟩ := ih (Nat.lt_of_succ_lt h) j g (by rw [hq]; exact hg)
      rw [a', b', if_neg h0, if_neg h0, ia, ib, hr, Finset.sum_range_succ _ (n % 8 + 1), Finset.sum_range_succ _ (n % 8 + 1)]
      exact ⟨rfl, rfl⟩

/-- After the eighth point of a column tile the totals are the whole sums over the subjects. -/
theorem finished (c : Dev nD) (t : Fin cfg0.N) (h7 : t.val % 8 = 7) (j : Fin 2048) (g : Fin 16384) (hg : g.val = t.val / 8 * 2048 + j.val) :
    (outsAt0 m c t.val t.isLt).2.1 (ix2 (0 : Fin 1) j) = num (scores m c) (times m c) g
    ∧ (outsAt0 m c t.val t.isLt).2.2 (ix2 (0 : Fin 1) j) = den (times m c) g := by
  obtain ⟨a, b⟩ := totals m c t.val t.isLt j g hg
  rw [h7] at a b
  rw [a, b, sum_tiles, sum_tiles]
  exact ⟨rfl, rfl⟩

end Cert.KernelIdeal.Accum

end
-- ==== Proof.KernelValue.lean ====
/-
  The kernel's result on the extended reals.

  The last point of each column tile writes back the logarithm of the quotient of the two finished totals, so the
  output row ends holding, at position `g`, the per-subject term `log (num g / den g)` of the specification: the eight
  write-backs cover the row, tile by tile.  The program then lays the row out as a column and applies the closed
  expression `tail` to it.
-/
import proofs.«171870_j33638183862568_2_alg».proof.Proof.KernelAccum
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.RiskSet
open Cert.KernelIdeal.Pieces Cert.KernelIdeal.Body Cert.KernelIdeal.Blocks Cert.KernelIdeal.Accum

variable (m : (ℓ : Loc nD τ sig) → Buf (Elt Ideal) ℓ) (ρ : Dev nD → PrngReg)

/-- The per-subject terms as a row. -/
def logRow (r y : Col.Idx → EReal) : S1x16384.Idx → EReal := fun i => logRatio r y (i 1)

/-- An index of the output row is in point `t`'s block iff each coordinate is in the block's range on its axis. -/
theorem mem_block (t : Fin cfg0.N) (i : S1x16384.Idx) :
    i ∈ ((cfg0.win 3).blk t).view.set ↔ ∀ a : Fin 2, win0_3.index t a * S1x2048.size a ≤ (i a).val ∧ (i a).val < win0_3.index t a * S1x2048.size a + S1x2048.size a := by
  show i ∈ ((View.whole main_v2).slice (win0_3.rect t)).set ↔ _
  rw [View.set_slice_whole, Rect.mem_set_unit]
  exact Iff.rfl

/-- What the last point of a column tile writes back is its block of the row of per-subject terms. -/
theorem flushed_eq (c : Dev nD) (t : Fin cfg0.N) (hf : (cfg0.win 3).flush t = true) :
    (dats m 0 c).flushed 3 t = ((cfg0.win 3).blk t).view.read (Elt Ideal) (logRow (scores m c) (times m c)) := by
  have h7 : t.val % 8 = 7 := (flush0_3 t).mp hf
  have h0 : ¬ t.val % 8 = 0 := by omega
  have e1 : (outsAt0 m c t.val t.isLt).1
      = k0_pay6 (F := Ideal) (outsAt0 m c t.val t.isLt).2.1 (outsAt0 m c t.val t.isLt).2.2 := by
    rw [outsAt0_C m c t h0 h7]
    dsimp only
    rw [last_output, last_weighted, last_count]
  obtain ⟨-, -, -, -, -, -, i0, i1⟩ := index_facts t
  show (cfg0.win 3).cut (grid0.coords t) ((dats m 0 c).after 3 t) = _
  rw [after0_3, e1]
  funext y
  rw [View.read_apply]
  generalize hG : logRow (scores m c) (times m c) (((cfg0.win 3).blk t).view.emb y) = Z
  show _ = Z
  subst hG
  obtain ⟨u, j, rfl⟩ : ∃ (u : Fin 1) (j : Fin 2048), y = ix2 u j := ⟨y 0, y 1, eq_ix2 y⟩
  have hu : u = 0 := Fin.ext (by omega)
  subst hu
  have hg : ((((cfg0.win 3).blk t).view.emb (ix2 (0 : Fin 1) j)) 1).val = t.val / 8 * 2048 + j.val := by
    show win0_3.index t (1 : Fin 2) * 2048 + 1 * j.val = _
    omega
  have hx : (cfg0.win 3).xinj (grid0.coords t) (ix2 (0 : Fin 1) j) = ix2 (0 : Fin 1) j := funext fun a => Fin.ext rfl
  obtain ⟨a, b⟩ := finished m c t h7 j _ hg
  refine (congrArg (k0_pay6 (F := Ideal) (outsAt0 m c t.val t.isLt).2.1 (outsAt0 m c t.val t.isLt).2.2) hx).trans ?_
  rw [finish_entry, a, b]
  unfold logRow logRatio
  rfl

/-- Every position of the output row is in the block of its column tile's last point. -/
theorem covered (i : S1x16384.Idx) :
    ∃ t : Fin cfg0.N, (cfg0.win 3).flush t = true ∧ i ∈ ((cfg0.win 3).blk t).view.set := by
  have hN : cfg0.N = 64 := N_0
  have hi0 : (i 0).val < 1 := (i 0).isLt
  have hi1 : (i 1).val < 16384 := (i 1).isLt
  let t : Fin cfg0.N := ⟨(i 1).val / 2048 * 8 + 7, by rw [hN]; omega⟩
  have ht : t.val = (i 1).val / 2048 * 8 + 7 := rfl
  obtain ⟨-, -, -, -, -, -, e0, e1⟩ := index_facts t
  refine ⟨t, (flush0_3 t).mpr (by rw [ht]; omega), ?_⟩
  rw [mem_block]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 2048 ≤ (i 1).val ∧ (i 1).val < win0_3.index t (1 : Fin 2) * 2048 + 2048; omega

/-- The output row after the run: the per-subject terms. -/
theorem final (c : Dev nD) : (dats m 0 c).arrAt 3 cfg0.N = logRow (scores m c) (times m c) :=
  (dats m 0 c).arrAt_eq_of_cover 3 (logRow (scores m c) (times m c)) (flushed_eq m c) covered

/-- A row laid out as a column holds position `p` at entry `p`. -/
theorem col_of_row (r y : Col.Idx → EReal) :
    shapeCast S16384x1 (logRow r y) shapeCasts_S1x16384_S16384x1 = logCol r y := by
  funext i
  obtain ⟨p, q, rfl⟩ : ∃ (p : Fin 16384) (q : Fin 1), i = ix2 p q := ⟨i 0, i 1, eq_ix2 i⟩
  refine (shapeCast_apply (logRow r y) shapeCasts_S1x16384_S16384x1 (ix2 p q) (ix2 (0 : Fin 1) p) ?_).trans rfl
  rw [Shape.rowMajor_val_two, Shape.rowMajor_val_two]
  have hq : q.val = 0 := by omega
  show 0 * 16384 + p.val = p.val * 1 + q.val
  omega

/-- The program's result: the closed expression `tail` of the column of per-subject terms. -/
theorem result_eq (c : Dev nD) :
    Pipeline.afterTail₀ cfgs (dats m) 0 (V0 m) [hostOps1, hostOps1_1, hostOps1_2] c main_v13
      = tail reducesTo_S16384x1_S_d0_1 reducesTo_S512x256_S_d0_1 h_S_ (scores m c) (m ((c : Thread nD τ).loc main_arg2))
          (m ((c : Thread nD τ).loc main_arg3)) (logCol (scores m c) (times m c)) := by
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have eo : Pipeline.withArrays (cfgs 0).spec c (V0 m c) (fun w => (dats m 0 c).arrAt w (cfgs 0).N) (Proc.devRef .tc main_v2)
      = logRow (scores m c) (times m c) :=
    (Pipeline.withArrays_arr spec0 launch0.win.arr_inj c _ _ 3).trans (final m c)
  unfold Pipeline.afterTail₀
  simp only [hostOps1, hostOps1_1, hostOps1_2, List.flatten_cons, List.flatten_nil, List.append_nil, List.cons_append, List.nil_append]
  after_results_simp
  rw [e0, e2, e3, eo, ← col_of_row (scores m c) (times m c)]
  rfl

/-- The run, read: the result at `tail` of the column of per-subject terms, the arguments unchanged. -/
theorem run : θ_run defs (onTc (τ := τ) (main (F := Ideal))) ⟨m, fun _ => 0, ρ⟩ fun r => ∀ c : Dev nD,
      r.2.mem ((c.tc : Thread nD τ).loc main_v13)
        = tail reducesTo_S16384x1_S_d0_1 reducesTo_S512x256_S_d0_1 h_S_ (scores m c) (m ((c : Thread nD τ).loc main_arg2))
            (m ((c : Thread nD τ).loc main_arg3)) (logCol (scores m c) (times m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference's per-subject terms are the specification's.

  The reference forms the full 16384 × 16384 matrix `[y j - y i ≤ 0]` from the column of survival times and its transpose,
  multiplies it by the column `exp r` broadcast across, and sums both matrices down their columns from zero.  On the
  extended reals `a - b ≤ 0` holds exactly when `a ≤ b`, so entry `(i, j)` of the matrix is the indicator of
  `y j ≤ y i`, and the two column sums at `j` are the weighted size and the size of `j`'s risk set.
-/
import proofs.«171870_j33638183862568_2_alg».proof.Proof.Gen.ReferenceIdeal.Read
import proofs.«171870_j33638183862568_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.RiskSet

/-- Entry `(k, j)` of the reference's 0/1 matrix is the indicator of `y j ≤ y k`. -/
theorem mask_entry (x1 : FVec Ideal S16384x1 .f32) (j : S16384.Idx) (k : Fin 16384) :
    val_main_v6 (F := Ideal) x1 (idx_main_v11 j k) = ind (at1 x1 (j 0)) (at1 x1 k) := by
  have e1 : idx_main_v0 (idx_main_v1 (idx_main_v11 j k)) = ix2 (j 0) (0 : Fin 1) :=
    funext fun a => Fin.ext (by match a with | ⟨0, _⟩ => rfl | ⟨1, _⟩ => rfl)
  have e2 : idx_main_v2 (idx_main_v11 j k) = ix2 k (0 : Fin 1) :=
    funext fun a => Fin.ext (by match a with | ⟨0, _⟩ => rfl | ⟨1, _⟩ => rfl)
  rw [val_main_v6_apply, val_main_v5_apply, val_main_v3_apply, val_main_v1_apply, val_main_v0_apply, val_main_v2_apply,
    val_main_v4_apply, val_main_cst_apply, e1, e2]
  show (((Ideal.cmp .ole (x1 (ix2 (j 0) (0 : Fin 1)) - x1 (ix2 k (0 : Fin 1))) (Ideal.ofBits .f32 0x00000000#32)).toNat : ℝ) : EReal) = _
  rw [Ideal.ofBits_zero_f32]
  exact ind_of_unsigned_sub _ _

/-- Entry `(k, j)` of the weighted matrix is `exp (r k)` times that indicator. -/
theorem weighted_entry (x0 x1 : FVec Ideal S16384x1 .f32) (j : S16384.Idx) (k : Fin 16384) :
    val_main_v9 (F := Ideal) x0 x1 (idx_main_v10 j k) = Ideal.exp (at1 x0 k) * ind (at1 x1 (j 0)) (at1 x1 k) := by
  have e3 : idx_main_v8 (idx_main_v10 j k) = ix2 k (0 : Fin 1) :=
    funext fun a => Fin.ext (by match a with | ⟨0, _⟩ => rfl | ⟨1, _⟩ => rfl)
  rw [val_main_v9_apply, val_main_v8_apply, val_main_v7_apply, e3]
  show Ideal.exp (x0 (ix2 k (0 : Fin 1))) * val_main_v6 (F := Ideal) x1 (idx_main_v11 j k) = _
  rw [mask_entry]

/-- The reference's column of per-subject terms is the specification's. -/
theorem col_eq (x0 x1 : FVec Ideal S16384x1 .f32) : val_main_v14 (F := Ideal) x0 x1 = logCol x0 x1 := by
  funext i
  obtain ⟨p, q, rfl⟩ : ∃ (p : Fin 16384) (q : Fin 1), i = ix2 p q := ⟨i 0, i 1, eq_ix2 i⟩
  have hj : idx_main_v14 (ix2 p q) = ix1 p :=
    funext fun a => Fin.ext (by
      match a with
      | ⟨0, _⟩ =>
        have hq : q.val = 0 := by omega
        show p.val * 1 + q.val = p.val
        omega)
  have hW : (∑ k : Fin 16384, val_main_v9 (F := Ideal) x0 x1 (idx_main_v10 (ix1 p) k)) = num x0 x1 p :=
    Finset.sum_congr rfl fun k _ => weighted_entry x0 x1 (ix1 p) k
  have hC : (∑ k : Fin 16384, val_main_v6 (F := Ideal) x1 (idx_main_v11 (ix1 p) k)) = den x1 p :=
    Finset.sum_congr rfl fun k _ => mask_entry x1 (ix1 p) k
  rw [val_main_v14_apply, val_main_v13_apply, val_main_v12_apply, val_main_v10_apply, val_main_v11_apply, hj, hW, hC,
    val_main_cst_0_apply, val_main_cst_1_apply]
  simp only [Ideal.hostUnary_log_def, Ideal.hostDivf_def, Ideal.ofBits_def, Ideal.ofBits_zero_f32, zero_add]
  rfl

/-- The reference's result: the closed expression `tail` of the column of per-subject terms. -/
theorem result_eq (x0 x1 : FVec Ideal S16384x1 .f32) (x2 : IVec S16384x1 32) (x3 : FVec Ideal S512x256 .f32) :
    val_main_v24 (F := Ideal) x0 x1 x2 x3
      = tail reducesTo_S16384x1_S_d0_1 reducesTo_S512x256_S_d0_1 h_S_ x0 x2 x3 (logCol x0 x1) := by
  rw [← col_eq]
  rfl

end Cert.ReferenceIdeal.RefValue

end
-- ==== Proof.lean ====
/-
  The partial-likelihood loss: the tiled kernel and the all-pairs reference compute one function.

  Both programs take risk scores `r`, survival times `y` and event indicators `e` of 16384 subjects and a weight
  matrix `W`.  For each subject `j` they form `num j = ∑ i, exp (r i) · [y j ≤ y i]` and `den j = ∑ i, [y j ≤ y i]`, the
  weighted size and the size of `j`'s risk set, and the term `log (num j / den j)`; the loss is the same closed
  expression of the column of these terms, of `r`, `e` and `W` in both.

  The reference builds the whole 16384 × 16384 matrix `[y j - y i ≤ 0]` and sums its columns; on the extended reals
  `a - b ≤ 0` holds exactly when `a ≤ b`.  The kernel walks an 8 × 8 grid of 2048 × 2048 tiles: at each point one
  matrix product gives the tile's shares of `num` and `den` for 2048 subjects at once, the shares of a column of
  tiles are added up in two running totals over eight consecutive points, and the eighth point writes the logarithm of
  the quotient.  A sum over the subjects is the sum of the eight tiles' shares by associativity and commutativity
  alone, so the two programs' per-subject terms agree on all extended reals and the precondition is not consulted.
  The kernel read on the extended reals is its own text with exact arithmetic, no operation replaced, so there is
  nothing further to preserve.
-/
import proofs.«171870_j33638183862568_2_alg».proof.Defs
import proofs.«171870_j33638183862568_2_alg».proof.Proof.Gen.Kernel
import proofs.«171870_j33638183862568_2_alg».proof.Proof.Gen.Kernel.Skeleton
import proofs.«171870_j33638183862568_2_alg».proof.Proof.Gen.Kernel.Launch
import proofs.«171870_j33638183862568_2_alg».proof.Proof.Gen.Kernel.Points
import proofs.«171870_j33638183862568_2_alg».proof.Proof.Gen.Kernel.Frame
import proofs.«171870_j33638183862568_2_alg».proof.Proof.Gen.KernelIdeal
import proofs.«171870_j33638183862568_2_alg».proof.Proof.Gen.KernelIdeal.Skeleton
import proofs.«171870_j33638183862568_2_alg».proof.Proof.Gen.KernelIdeal.Launch
import proofs.«171870_j33638183862568_2_alg».proof.Proof.Gen.KernelIdeal.Points
import proofs.«171870_j33638183862568_2_alg».proof.Proof.Gen.KernelIdeal.Frame
import proofs.«171870_j33638183862568_2_alg».proof.Proof.Gen.ReferenceIdeal
import proofs.«171870_j33638183862568_2_alg».proof.Proof.Gen.Pre_finite_inputs
import proofs.«171870_j33638183862568_2_alg».proof.Proof.Gen.ReferenceIdeal.Run
import proofs.«171870_j33638183862568_2_alg».proof.Proof.Gen.ReferenceIdeal.Read
import proofs.«171870_j33638183862568_2_alg».proof.Proof.KernelValue
import proofs.«171870_j33638183862568_2_alg».proof.Proof.RefValue
import Idealize.ShloMosaic.Adequacy
import Idealize.ShloMosaic.Init

noncomputable section

namespace Cert.Proof

open Idealize.ShloMosaic Idealize.SL.Sem Cert.RiskSet

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of array operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the closed expression `tail` of the column of per-subject terms of the same arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))).trans ?_
  rw [(hagree c).1, (hagree c).2.1, (hagree c).2.2.1, (hagree c).2.2.2]
  exact Cert.ReferenceIdeal.RefValue.result_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
